-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S64x32 .f32) (main_arg6 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x256 .f32) (main_arg1 : FVec F S256x64 .f32) (main_arg2 : FVec F S64 .f32) (main_arg3 : FVec F S64x32 .f32) (main_arg4 : FVec F S32 .f32) (main_arg5 : FVec F S64x32 .f32) (main_arg6 : FVec F S32 .f32) (main_arg7 : IVec S2x800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_v13 main_v16
-- ==== Kernel.lean ====
abbrev S50000x256 : Shape := ⟨2, ![50000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x256 : Shape := ⟨2, ![5000, 256]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩

abbrev nBuf : Space → Nat
  | .hbm => 114
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S64x32, .f32⟩
  | .hbm, ⟨6, _⟩ => ⟨S32, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S50000x32, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x32, .f32⟩
  | .hbm, ⟨84, _⟩ => ⟨S850000x1, .f32⟩
  | .hbm, ⟨85, _⟩ => ⟨S850000x32, .f32⟩
  | .hbm, ⟨86, _⟩ => ⟨S850000x32, .f32⟩
  | .hbm, ⟨87, _⟩ => ⟨S_, .f32⟩
  | .hbm, ⟨88, _⟩ => ⟨S50000x32, .f32⟩
  | .hbm, ⟨89, _⟩ => ⟨S850000x1, .i32⟩
  | .hbm, ⟨90, _⟩ => ⟨S50000x32, .f32⟩
  | .hbm, ⟨91, _⟩ => ⟨S1x32, .f32⟩
  | .hbm, ⟨92, _⟩ => ⟨S50000x32, .f32⟩
  | .hbm, ⟨93, _⟩ => ⟨S50000x32, .f32⟩
  | .hbm, ⟨94, _⟩ => ⟨S50000x32, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x32, .f32⟩
  | .hbm, ⟨104, _⟩ => ⟨S850000x1, .f32⟩
  | .hbm, ⟨105, _⟩ => ⟨S850000x32, .f32⟩
  | .hbm, ⟨106, _⟩ => ⟨S850000x32, .f32⟩
  | .hbm, ⟨107, _⟩ => ⟨S_, .f32⟩
  | .hbm, ⟨108, _⟩ => ⟨S50000x32, .f32⟩
  | .hbm, ⟨109, _⟩ => ⟨S850000x1, .i32⟩
  | .hbm, ⟨110, _⟩ => ⟨S50000x32, .f32⟩
  | .hbm, ⟨111, _⟩ => ⟨S1x32, .f32⟩
  | .hbm, ⟨112, _⟩ => ⟨S50000x32, .f32⟩
  | .hbm, ⟨113, _⟩ => ⟨S50000x32, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 114
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S64x32, .f32⟩
  | .hbm, ⟨6, _⟩ => ⟨S32, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S50000x32, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x32, .f32⟩
  | .hbm, ⟨84, _⟩ => ⟨S850000x1, .f32⟩
  | .hbm, ⟨85, _⟩ => ⟨S850000x32, .f32⟩
  | .hbm, ⟨86, _⟩ => ⟨S850000x32, .f32⟩
  | .hbm, ⟨87, _⟩ => ⟨S_, .f32⟩
  | .hbm, ⟨88, _⟩ => ⟨S50000x32, .f32⟩
  | .hbm, ⟨89, _⟩ => ⟨S850000x1, .i32⟩
  | .hbm, ⟨90, _⟩ => ⟨S50000x32, .f32⟩
  | .hbm, ⟨91, _⟩ => ⟨S1x32, .f32⟩
  | .hbm, ⟨92, _⟩ => ⟨S50000x32, .f32⟩
  | .hbm, ⟨93, _⟩ => ⟨S50000x32, .f32⟩
  | .hbm, ⟨94, _⟩ => ⟨S50000x32, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x32, .f32⟩
  | .hbm, ⟨104, _⟩ => ⟨S850000x1, .f32⟩
  | .hbm, ⟨105, _⟩ => ⟨S850000x32, .f32⟩
  | .hbm, ⟨106, _⟩ => ⟨S850000x32, .f32⟩
  | .hbm, ⟨107, _⟩ => ⟨S_, .f32⟩
  | .hbm, ⟨108, _⟩ => ⟨S50000x32, .f32⟩
  | .hbm, ⟨109, _⟩ => ⟨S850000x1, .i32⟩
  | .hbm, ⟨110, _⟩ => ⟨S50000x32, .f32⟩
  | .hbm, ⟨111, _⟩ => ⟨S1x32, .f32⟩
  | .hbm, ⟨112, _⟩ => ⟨S50000x32, .f32⟩
  | .hbm, ⟨113, _⟩ => ⟨S50000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KernelRun.lean ====
/-
  The kernel's run with its two results named.

  The program is ten segments in a row: host operations, the first launch, host operations, the second launch, host
  operations, the third launch, host operations.  The buffer contents at each boundary are a fold from the launch
  memory: a stretch of host operations applies each operation's function to the buffers it reads; a launch replaces
  its result array by what its ten write-backs leave and keeps every other buffer.  Every weakly fair execution
  terminates without a fault, and in the final memory every unscoped buffer holds the last boundary's contents; so
  the two result buffers hold the fold's value at them, and the argument buffers what they held at launch.
-/
import proofs.«115209_j54924041781476_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the two result buffers end at the last boundary's
    contents (the fold through the seven host stretches and the three launches), the arguments as launched. -/
theorem run : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_v83) = W10 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
       h c _ (mem_uc main_v83 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Results

end
-- ==== Proof.Gcn.lean ====
/-
  The variational graph encoder as a function of its inputs.

  Nodes are numbered 0 … 49999.  The edge list `e` has two rows of 800000 node numbers (sources, destinations); one
  self loop per node is appended, which gives 850000 edge slots with sources `srcOf e` and destinations `dstOf e`.
  A node's degree is the number of slots whose destination it is; `invSqrtDeg` is degree^(-1/2) where the degree is
  positive and 0 elsewhere; a slot's weight is the product of that quantity at its two endpoints (the symmetric
  normalisation D^(-1/2) · A · D^(-1/2)).  One layer multiplies the node features by a weight matrix, sends every
  slot's source row, scaled by the slot's weight, to the slot's destination row, sums, and adds the bias.  The hidden
  features are the first layer's result clamped below at 0; `mu` and `logstd` are two second layers over the SAME
  hidden features with their own weights and biases.

  Every function here is a composition of array operations that both programs perform word for word; the only
  operation the two programs do differently is the matrix product itself, which appears here as the product of the
  whole arrays.  Nothing is proved in this file.
-/
import proofs.«115209_j54924041781476_1_alg».proof.Proof.Gen.ReferenceIdeal
import Idealize.ShloMosaic.PureOps

noncomputable section

namespace Cert.Gcn

open Cert.ReferenceIdeal Cert.ReferenceIdeal.Gen Idealize.ShloMosaic

variable {F : FTy → Type} [FloatOps F]

/-- The sources of the 850000 edge slots: row 0 of the edge list, then every node once (the self loops). -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destinations of the 850000 edge slots: row 1 of the edge list, then every node once. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Node numbers as a column of gather indices, a negative number `v` read as `v + 50000` (indexing from the end). -/
def wrapIdx (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- The degree of every node: a one for every edge slot, summed into the slot's destination. -/
def degree (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- degree^(-1/2) at a node of positive degree (the degree clamped below at 1 before the root), 0 at any other. -/
def invSqrtDeg (d : (⟨S850000, .i32⟩ : BufTy).Contents (Elt F)) : (⟨S50000, .f32⟩ : BufTy).Contents (Elt F) :=
  select (cmpf (F := F) .ogt (degree d) (broadcastInDim S50000 ![] bcast_S_S50000 (constant S_ .f32 0x00000000#32))) (Host.rsqrt (maximumf (degree d) (broadcastInDim S50000 ![] bcast_S_S50000 (constant S_ .f32 0x3F800000#32)))) (broadcastInDim S50000 ![] bcast_S_S50000 (id (constant S_ .f32 0x00000000#32)))

/-- The weight of every edge slot: degree^(-1/2) at its source times degree^(-1/2) at its destination. -/
def edgeNorm (s d : (⟨S850000, .i32⟩ : BufTy).Contents (Elt F)) : (⟨S850000, .f32⟩ : BufTy).Contents (Elt F) :=
  mulf (Host.gather gather_S50000_S850000x1_S850000_n_0_n_n_0_1_1 (invSqrtDeg d) (wrapIdx s)) (Host.gather gather_S50000_S850000x1_S850000_n_0_n_n_0_1_1 (invSqrtDeg d) (wrapIdx d))

/-- One graph-convolution aggregation at width 64: every edge slot `k` carries row `s k` of `z` scaled by the slot's
    weight `w k`; the slots are summed into the rows their destinations `d k` name, starting from zero; the bias `b`
    is added to every row.  (The gather reads row `s k` through the wrapped index; the scatter adds into row `d k`.) -/
def conv64 (z : (⟨S50000x64, .f32⟩ : BufTy).Contents (Elt F)) (b : (⟨S64, .f32⟩ : BufTy).Contents (Elt F)) (s d : (⟨S850000, .i32⟩ : BufTy).Contents (Elt F)) (w : (⟨S850000, .f32⟩ : BufTy).Contents (Elt F)) : (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 z (wrapIdx s)) (broadcastInDim S850000x64 ![0, 1] bcast_S850000x1_S850000x64_0_1 (broadcastInDim S850000x1 ![0] bcast_S850000_S850000x1_0 w)))) (broadcastInDim S50000x64 ![0, 1] bcast_S1x64_S50000x64_0_1 (broadcastInDim S1x64 ![1] bcast_S64_S1x64_1 b))

/-- One graph-convolution aggregation at width 32: every edge slot `k` carries row `s k` of `z` scaled by the slot's
    weight `w k`; the slots are summed into the rows their destinations `d k` name, starting from zero; the bias `b`
    is added to every row.  (The gather reads row `s k` through the wrapped index; the scatter adds into row `d k`.) -/
def conv32 (z : (⟨S50000x32, .f32⟩ : BufTy).Contents (Elt F)) (b : (⟨S32, .f32⟩ : BufTy).Contents (Elt F)) (s d : (⟨S850000, .i32⟩ : BufTy).Contents (Elt F)) (w : (⟨S850000, .f32⟩ : BufTy).Contents (Elt F)) : (⟨S50000x32, .f32⟩ : BufTy).Contents (Elt F) :=
  addf (Host.scatterAdd scatter_S50000x32_S850000x1_S850000x32_1_0_0_1 (broadcastInDim S50000x32 ![] bcast_S_S50000x32 (constant S_ .f32 0x00000000#32)) (broadcastInDim S850000x1 ![0] bcast_S850000_S850000x1_0 d) (mulf (Host.gather gather_S50000x32_S850000x1_S850000x32_1_0_n_n_0_1_132 z (wrapIdx s)) (broadcastInDim S850000x32 ![0, 1] bcast_S850000x1_S850000x32_0_1 (broadcastInDim S850000x1 ![0] bcast_S850000_S850000x1_0 w)))) (broadcastInDim S50000x32 ![0, 1] bcast_S1x32_S50000x32_0_1 (broadcastInDim S1x32 ![1] bcast_S32_S1x32_1 b))

/-- The first layer after the product: `z` aggregated over the edge slots, plus the bias, clamped below at 0. -/
def layer1 (z : (⟨S50000x64, .f32⟩ : BufTy).Contents (Elt F)) (b : (⟨S64, .f32⟩ : BufTy).Contents (Elt F)) (s d : (⟨S850000, .i32⟩ : BufTy).Contents (Elt F)) (w : (⟨S850000, .f32⟩ : BufTy).Contents (Elt F)) : (⟨S50000x64, .f32⟩ : BufTy).Contents (Elt F) :=
  maximumf (conv64 z b s d w) (broadcastInDim S50000x64 ![] bcast_S_S50000x64 (constant S_ .f32 0x00000000#32))

/-- The hidden features: the first layer over `x · W_in` with bias `b_in`. -/
def hidden (x : (⟨S50000x256, .f32⟩ : BufTy).Contents (Elt F)) (wIn : (⟨S256x64, .f32⟩ : BufTy).Contents (Elt F)) (bIn : (⟨S64, .f32⟩ : BufTy).Contents (Elt F)) (e : (⟨S2x800000, .i32⟩ : BufTy).Contents (Elt F)) : (⟨S50000x64, .f32⟩ : BufTy).Contents (Elt F) :=
  layer1 (Host.dotGeneral dot_S50000x256_S256x64_S50000x64_1_0_0_1_n_n none x wIn) bIn (srcOf e) (dstOf e) (edgeNorm (srcOf e) (dstOf e))

/-- A second layer over hidden features `h`: `h · W` aggregated over the same edge slots, plus the bias. Both results
    of the encoder are this, at (`W_mu`, `b_mu`) and at (`W_ls`, `b_ls`). -/
def head (h : (⟨S50000x64, .f32⟩ : BufTy).Contents (Elt F)) (w : (⟨S64x32, .f32⟩ : BufTy).Contents (Elt F)) (b : (⟨S32, .f32⟩ : BufTy).Contents (Elt F)) (e : (⟨S2x800000, .i32⟩ : BufTy).Contents (Elt F)) : (⟨S50000x32, .f32⟩ : BufTy).Contents (Elt F) :=
  conv32 (Host.dotGeneral dot_S50000x64_S64x32_S50000x32_1_0_0_1_n_n none h w) b (srcOf e) (dstOf e) (edgeNorm (srcOf e) (dstOf e))

end Cert.Gcn

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.Dense.lean ====
/-
  The four matrix products of the two programs, entry by entry, over the extended reals.

  Each of the kernel's three bodies rounds its two loaded blocks to bf16 — the identity on extended reals — and
  multiplies them into a zero accumulator: entry (p, c) of the result block is Σ_q a(p, q) · b(q, c), the sum over the
  256 (first layer) or 64 (second layers) columns of the left block.  The reference's two whole-array products are
  the same sums over whole rows.  For every product record involved (all contract the left operand's axis 1 against
  the right operand's axis 0, with no batch axis) the operand coordinates at a result entry and a contraction
  position are decided here; the sums themselves are the shared lemma file's.
-/
import proofs.«115209_j54924041781476_1_alg».proof.Proof.Gen.KernelIdeal.Skeleton
import proofs.«115209_j54924041781476_1_alg».proof.Proof.Gen.ReferenceIdeal
import proofs.«115209_j54924041781476_1_alg».proof.Proof.LibDense
import Idealize.ShloMosaic.Lib.Pipeline.Value

noncomputable section

open scoped BigOperators

namespace Cert.Dense

open Idealize.ShloMosaic Idealize.ShloMosaic.ValueIdx
open Cert.KernelIdeal.Gen Cert.ReferenceIdeal.Gen

/-! ## The operand coordinates of each product record -/

/-! ### `Cert.KernelIdeal.dot_S5000x256_S256x64_S5000x64_1_0_0_1_n_n` -/

theorem k256_lhs0 (i : Cert.KernelIdeal.S5000x64.Idx) (q : Cert.KernelIdeal.dot_S5000x256_S256x64_S5000x64_1_0_0_1_n_n.contr.Idx) :
    (Cert.KernelIdeal.dot_S5000x256_S256x64_S5000x64_1_0_0_1_n_n.lhsIdx i q 0).val = (i 0).val := by
  unfold DotDims.lhsIdx
  rw [dif_neg (show ¬(0 : Fin Cert.KernelIdeal.S5000x256.rank) ∈ Cert.KernelIdeal.dot_S5000x256_S256x64_S5000x64_1_0_0_1_n_n.lhsBatch by decide), dif_pos (show (0 : Fin Cert.KernelIdeal.S5000x256.rank) ∈ Cert.KernelIdeal.dot_S5000x256_S256x64_S5000x64_1_0_0_1_n_n.lhsNonContracting by decide)]
  rfl
theorem k256_lhs1 (i : Cert.KernelIdeal.S5000x64.Idx) (q : Cert.KernelIdeal.dot_S5000x256_S256x64_S5000x64_1_0_0_1_n_n.contr.Idx) :
    (Cert.KernelIdeal.dot_S5000x256_S256x64_S5000x64_1_0_0_1_n_n.lhsIdx i q 1).val = (q ⟨0, by decide⟩).val :=
  Cert.KernelIdeal.dot_S5000x256_S256x64_S5000x64_1_0_0_1_n_n.lhsIdx_val_of_single rfl i q
theorem k256_rhs0 (i : Cert.KernelIdeal.S5000x64.Idx) (q : Cert.KernelIdeal.dot_S5000x256_S256x64_S5000x64_1_0_0_1_n_n.contr.Idx) :
    (Cert.KernelIdeal.dot_S5000x256_S256x64_S5000x64_1_0_0_1_n_n.rhsIdx i q 0).val = (q ⟨0, by decide⟩).val :=
  Cert.KernelIdeal.dot_S5000x256_S256x64_S5000x64_1_0_0_1_n_n.rhsIdx_val_of_single rfl i q
theorem k256_rhs1 (i : Cert.KernelIdeal.S5000x64.Idx) (q : Cert.KernelIdeal.dot_S5000x256_S256x64_S5000x64_1_0_0_1_n_n.contr.Idx) :
    (Cert.KernelIdeal.dot_S5000x256_S256x64_S5000x64_1_0_0_1_n_n.rhsIdx i q 1).val = (i 1).val := by
  unfold DotDims.rhsIdx
  rw [dif_neg (show ¬(1 : Fin Cert.KernelIdeal.S256x64.rank) ∈ Cert.KernelIdeal.dot_S5000x256_S256x64_S5000x64_1_0_0_1_n_n.rhsBatch by decide), dif_pos (show (1 : Fin Cert.KernelIdeal.S256x64.rank) ∈ Cert.KernelIdeal.dot_S5000x256_S256x64_S5000x64_1_0_0_1_n_n.rhsNonContracting by decide)]
  rfl

/-! ### `Cert.KernelIdeal.dot_S5000x64_S64x32_S5000x32_1_0_0_1_n_n` -/

theorem k64_lhs0 (i : Cert.KernelIdeal.S5000x32.Idx) (q : Cert.KernelIdeal.dot_S5000x64_S64x32_S5000x32_1_0_0_1_n_n.contr.Idx) :
    (Cert.KernelIdeal.dot_S5000x64_S64x32_S5000x32_1_0_0_1_n_n.lhsIdx i q 0).val = (i 0).val := by
  unfold DotDims.lhsIdx
  rw [dif_neg (show ¬(0 : Fin Cert.KernelIdeal.S5000x64.rank) ∈ Cert.KernelIdeal.dot_S5000x64_S64x32_S5000x32_1_0_0_1_n_n.lhsBatch by decide), dif_pos (show (0 : Fin Cert.KernelIdeal.S5000x64.rank) ∈ Cert.KernelIdeal.dot_S5000x64_S64x32_S5000x32_1_0_0_1_n_n.lhsNonContracting by decide)]
  rfl
theorem k64_lhs1 (i : Cert.KernelIdeal.S5000x32.Idx) (q : Cert.KernelIdeal.dot_S5000x64_S64x32_S5000x32_1_0_0_1_n_n.contr.Idx) :
    (Cert.KernelIdeal.dot_S5000x64_S64x32_S5000x32_1_0_0_1_n_n.lhsIdx i q 1).val = (q ⟨0, by decide⟩).val :=
  Cert.KernelIdeal.dot_S5000x64_S64x32_S5000x32_1_0_0_1_n_n.lhsIdx_val_of_single rfl i q
theorem k64_rhs0 (i : Cert.KernelIdeal.S5000x32.Idx) (q : Cert.KernelIdeal.dot_S5000x64_S64x32_S5000x32_1_0_0_1_n_n.contr.Idx) :
    (Cert.KernelIdeal.dot_S5000x64_S64x32_S5000x32_1_0_0_1_n_n.rhsIdx i q 0).val = (q ⟨0, by decide⟩).val :=
  Cert.KernelIdeal.dot_S5000x64_S64x32_S5000x32_1_0_0_1_n_n.rhsIdx_val_of_single rfl i q
theorem k64_rhs1 (i : Cert.KernelIdeal.S5000x32.Idx) (q : Cert.KernelIdeal.dot_S5000x64_S64x32_S5000x32_1_0_0_1_n_n.contr.Idx) :
    (Cert.KernelIdeal.dot_S5000x64_S64x32_S5000x32_1_0_0_1_n_n.rhsIdx i q 1).val = (i 1).val := by
  unfold DotDims.rhsIdx
  rw [dif_neg (show ¬(1 : Fin Cert.KernelIdeal.S64x32.rank) ∈ Cert.KernelIdeal.dot_S5000x64_S64x32_S5000x32_1_0_0_1_n_n.rhsBatch by decide), dif_pos (show (1 : Fin Cert.KernelIdeal.S64x32.rank) ∈ Cert.KernelIdeal.dot_S5000x64_S64x32_S5000x32_1_0_0_1_n_n.rhsNonContracting by decide)]
  rfl

/-! ### `Cert.ReferenceIdeal.dot_S50000x256_S256x64_S50000x64_1_0_0_1_n_n` -/

theorem r256_lhs0 (i : Cert.ReferenceIdeal.S50000x64.Idx) (q : Cert.ReferenceIdeal.dot_S50000x256_S256x64_S50000x64_1_0_0_1_n_n.contr.Idx) :
    (Cert.ReferenceIdeal.dot_S50000x256_S256x64_S50000x64_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x64_S50000x64_1_0_0_1_n_n.lhsBatch by decide), dif_pos (show (0 : Fin Cert.ReferenceIdeal.S50000x256.rank) ∈ Cert.ReferenceIdeal.dot_S50000x256_S256x64_S50000x64_1_0_0_1_n_n.lhsNonContracting by decide)]
  rfl
theorem r256_lhs1 (i : Cert.ReferenceIdeal.S50000x64.Idx) (q : Cert.ReferenceIdeal.dot_S50000x256_S256x64_S50000x64_1_0_0_1_n_n.contr.Idx) :
    (Cert.ReferenceIdeal.dot_S50000x256_S256x64_S50000x64_1_0_0_1_n_n.lhsIdx i q 1).val = (q ⟨0, by decide⟩).val :=
  Cert.ReferenceIdeal.dot_S50000x256_S256x64_S50000x64_1_0_0_1_n_n.lhsIdx_val_of_single rfl i q
theorem r256_rhs0 (i : Cert.ReferenceIdeal.S50000x64.Idx) (q : Cert.ReferenceIdeal.dot_S50000x256_S256x64_S50000x64_1_0_0_1_n_n.contr.Idx) :
    (Cert.ReferenceIdeal.dot_S50000x256_S256x64_S50000x64_1_0_0_1_n_n.rhsIdx i q 0).val = (q ⟨0, by decide⟩).val :=
  Cert.ReferenceIdeal.dot_S50000x256_S256x64_S50000x64_1_0_0_1_n_n.rhsIdx_val_of_single rfl i q
theorem r256_rhs1 (i : Cert.ReferenceIdeal.S50000x64.Idx) (q : Cert.ReferenceIdeal.dot_S50000x256_S256x64_S50000x64_1_0_0_1_n_n.contr.Idx) :
    (Cert.ReferenceIdeal.dot_S50000x256_S256x64_S50000x64_1_0_0_1_n_n.rhsIdx i q 1).val = (i 1).val := by
  unfold DotDims.rhsIdx
  rw [dif_neg (show ¬(1 : Fin Cert.ReferenceIdeal.S256x64.rank) ∈ Cert.ReferenceIdeal.dot_S50000x256_S256x64_S50000x64_1_0_0_1_n_n.rhsBatch by decide), dif_pos (show (1 : Fin Cert.ReferenceIdeal.S256x64.rank) ∈ Cert.ReferenceIdeal.dot_S50000x256_S256x64_S50000x64_1_0_0_1_n_n.rhsNonContracting by decide)]
  rfl

/-! ### `Cert.ReferenceIdeal.dot_S50000x64_S64x32_S50000x32_1_0_0_1_n_n` -/

theorem r64_lhs0 (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x32_S50000x32_1_0_0_1_n_n.lhsBatch by decide), dif_pos (show (0 : Fin Cert.ReferenceIdeal.S50000x64.rank) ∈ Cert.ReferenceIdeal.dot_S50000x64_S64x32_S50000x32_1_0_0_1_n_n.lhsNonContracting by decide)]
  rfl
theorem r64_lhs1 (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 1).val = (q ⟨0, by decide⟩).val :=
  Cert.ReferenceIdeal.dot_S50000x64_S64x32_S50000x32_1_0_0_1_n_n.lhsIdx_val_of_single rfl i q
theorem r64_rhs0 (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 0).val = (q ⟨0, by decide⟩).val :=
  Cert.ReferenceIdeal.dot_S50000x64_S64x32_S50000x32_1_0_0_1_n_n.rhsIdx_val_of_single rfl i q
theorem r64_rhs1 (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 1).val = (i 1).val := by
  unfold DotDims.rhsIdx
  rw [dif_neg (show ¬(1 : Fin Cert.ReferenceIdeal.S64x32.rank) ∈ Cert.ReferenceIdeal.dot_S50000x64_S64x32_S50000x32_1_0_0_1_n_n.rhsBatch by decide), dif_pos (show (1 : Fin Cert.ReferenceIdeal.S64x32.rank) ∈ Cert.ReferenceIdeal.dot_S50000x64_S64x32_S50000x32_1_0_0_1_n_n.rhsNonContracting by decide)]
  rfl

/-! ## The kernel bodies' stored values at an entry -/

/-- First layer: entry (p, c) of the stored block is the row p of the x block against column c of W_in. -/
theorem pay0_apply (a : Vec Ideal Cert.KernelIdeal.S5000x256 .f32) (b : Vec Ideal Cert.KernelIdeal.S256x64 .f32) (p : Fin 5000) (c : Fin 64) :
    Cert.KernelIdeal.Gen.k0_pay1 a b (ix2 p c) = ∑ q : Fin 256, a (ix2 p q) * b (ix2 q c) := by
  unfold Cert.KernelIdeal.Gen.k0_pay1
  exact Cert.LibDense.matmul_zero_apply Cert.KernelIdeal.dot_S5000x256_S256x64_S5000x64_1_0_0_1_n_n rfl rfl
    k256_lhs0 k256_lhs1 k256_rhs0 k256_rhs1 none a b p c

/-- Second layer (mu): the hidden block's row p against column c of W_mu; the body's shape cast is the identity. -/
theorem pay1_apply (a : Vec Ideal Cert.KernelIdeal.S5000x64 .f32) (b : Vec Ideal Cert.KernelIdeal.S64x32 .f32) (p : Fin 5000) (c : Fin 32) :
    Cert.KernelIdeal.Gen.k1_pay1 a b (ix2 p c) = ∑ q : Fin 64, a (ix2 p q) * b (ix2 q c) := by
  unfold Cert.KernelIdeal.Gen.k1_pay1
  rw [shapeCast_self]
  exact Cert.LibDense.matmul_zero_apply Cert.KernelIdeal.dot_S5000x64_S64x32_S5000x32_1_0_0_1_n_n rfl rfl
    k64_lhs0 k64_lhs1 k64_rhs0 k64_rhs1 none a b p c

/-- Second layer (logstd): the same body over W_ls. -/
theorem pay2_apply (a : Vec Ideal Cert.KernelIdeal.S5000x64 .f32) (b : Vec Ideal Cert.KernelIdeal.S64x32 .f32) (p : Fin 5000) (c : Fin 32) :
    Cert.KernelIdeal.Gen.k2_pay1 a b (ix2 p c) = ∑ q : Fin 64, a (ix2 p q) * b (ix2 q c) := by
  unfold Cert.KernelIdeal.Gen.k2_pay1
  rw [shapeCast_self]
  exact Cert.LibDense.matmul_zero_apply Cert.KernelIdeal.dot_S5000x64_S64x32_S5000x32_1_0_0_1_n_n rfl rfl
    k64_lhs0 k64_lhs1 k64_rhs0 k64_rhs1 none a b p c

/-! ## The reference's whole-array products at an entry -/

/-- `x · W_in` at (r, c). -/
theorem ref256_apply (a : FVec Ideal Cert.ReferenceIdeal.S50000x256 .f32) (b : FVec Ideal Cert.ReferenceIdeal.S256x64 .f32) (r : Fin 50000) (c : Fin 64) :
    Host.dotGeneral Cert.ReferenceIdeal.dot_S50000x256_S256x64_S50000x64_1_0_0_1_n_n none a b (ix2 r c) = ∑ q : Fin 256, a (ix2 r q) * b (ix2 q c) :=
  Cert.LibDense.dotGeneral_apply Cert.ReferenceIdeal.dot_S50000x256_S256x64_S50000x64_1_0_0_1_n_n rfl rfl
    r256_lhs0 r256_lhs1 r256_rhs0 r256_rhs1 none .single a b r c

/-- `h · W` at (r, c), for either second-layer weight. -/
theorem ref64_apply (a : FVec Ideal Cert.ReferenceIdeal.S50000x64 .f32) (b : FVec Ideal Cert.ReferenceIdeal.S64x32 .f32) (r : Fin 50000) (c : Fin 32) :
    Host.dotGeneral Cert.ReferenceIdeal.dot_S50000x64_S64x32_S50000x32_1_0_0_1_n_n none a b (ix2 r c) = ∑ q : Fin 64, a (ix2 r q) * b (ix2 q c) :=
  Cert.LibDense.dotGeneral_apply Cert.ReferenceIdeal.dot_S50000x64_S64x32_S50000x32_1_0_0_1_n_n rfl rfl
    r64_lhs0 r64_lhs1 r64_rhs0 r64_rhs1 none .single a b r c

end Cert.Dense

end
-- ==== Proof.Blocks.lean ====
/-
  From row blocks to whole arrays.

  Each of the kernel's three launches walks a grid of ten points.  At point t the body is handed rows
  5000·t … 5000·t + 4999 of its left operand (all columns) and the whole right operand, and the block it stores is
  written back to the same rows of the result array.  Entry (p, q) of the stored block is the sum over the left
  block's columns of a(p, k) · b(k, q), which is the entry (5000·t + p, q) of the product of the two WHOLE arrays; and
  every row r of the result lies in exactly the block of point r / 5000.  So after the launch the result array holds
  the product of the whole arrays, whatever those arrays were when the launch began.
-/
import proofs.«115209_j54924041781476_1_alg».proof.Proof.Gen.KernelIdeal.Frame
import proofs.«115209_j54924041781476_1_alg».proof.Proof.Dense
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Blocks

open Cert.KernelIdeal Cert.KernelIdeal.Gen

-- the buffer contents when a launch begins: any
variable (V : (c : Dev nD) → (b : Ref sig .tc) → Buf (Elt Ideal) ((c : Thread nD τ).loc b))

theorem hz : (![0, 0] : Fin 2 → Nat) = fun _ => 0 := funext fun a => by fin_cases a <;> rfl

/-! ## Region 0: rows 5000·t … 5000·t + 4999 of `main_arg0 · main_arg1` at grid point t -/

/-- The index maps over the ten grid points: the left operand and the result move down one row block per point,
    on column block 0; the right operand is the one whole block at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- The product of the two whole arrays as the region finds them. -/
def prod0 (c : Dev nD) : S50000x64.Idx → EReal :=
  Host.dotGeneral (F := Ideal) (φ₁ := .f32) (φ₂ := .f32) Cert.ReferenceIdeal.dot_S50000x256_S256x64_S50000x64_1_0_0_1_n_n none (V c main_arg0) (V c main_arg1)

/-- What grid point t writes back is block t of the whole product: entry (p, q) of the stored block is row p of the
    left block against column q of the right block, the left block's row p is row 5000·t + p of the left array, and
    the right block is the right array. -/
theorem flushed0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨e0, e1, e2, e3, e4, e5⟩ := idx0 t
  have hN : cfg0.N = 10 := N_0
  have ht : t.val < 10 := hN ▸ t.isLt
  funext j
  obtain ⟨p, q, rfl⟩ : ∃ (p : Fin 5000) (q : Fin 64), j = ix2 p q := ⟨j 0, j 1, eq_ix2 j⟩
  have hp : p.val < 5000 := p.isLt
  have hemb : ((cfg0.win 2).blk t).view.emb (ix2 p q) = (ix2 (⟨t.val * 5000 + p.val, by omega⟩ : Fin 50000) q : S50000x64.Idx) := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 64 + 1 * q.val = q.val; rw [e5]; omega
  show k0_pay1 (iblk0 V c 0 t) (iblk0 V c 1 t) (ix2 p q) = prod0 V c (((cfg0.win 2).blk t).view.emb (ix2 p q))
  rw [hemb]
  unfold prod0
  refine (Cert.Dense.pay0_apply (iblk0 V c 0 t) (iblk0 V c 1 t) p q).trans ?_
  refine Eq.trans ?_ (Cert.Dense.ref256_apply _ _ _ q).symm
  refine Finset.sum_congr rfl fun k _ => ?_
  have hl : (iblk0 V c 0 t : S5000x256.Idx → EReal) (ix2 p k) = (V c main_arg0 : S50000x256.Idx → EReal) (ix2 (⟨t.val * 5000 + p.val, by omega⟩ : Fin 50000) k) := by
    show V c main_arg0 (((cfg0.win 0).blk t).view.emb (ix2 p k)) = _
    congr 1
    funext a; apply Fin.ext
    match a with
    | ⟨0, _⟩ => show win0_0.index t (0 : Fin 2) * 5000 + 1 * p.val = t.val * 5000 + p.val; rw [e0]; omega
    | ⟨1, _⟩ => show win0_0.index t (1 : Fin 2) * 256 + 1 * k.val = k.val; rw [e1]; omega
  have hr : (iblk0 V c 1 t : S256x64.Idx → EReal) (ix2 k q) = (V c main_arg1 : S256x64.Idx → EReal) (ix2 k q) := by
    show V c main_arg1 (((cfg0.win 1).blk t).view.emb (ix2 k q)) = _
    congr 1
    funext a; apply Fin.ext
    match a with
    | ⟨0, _⟩ => show win0_1.index t (0 : Fin 2) * 256 + 1 * k.val = k.val; rw [e2]; omega
    | ⟨1, _⟩ => show win0_1.index t (1 : Fin 2) * 64 + 1 * q.val = q.val; rw [e3]; omega
  rw [hl, hr]

/-- An index of the result array lies in point t's block iff each coordinate lies in the block's range. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row r of the result lies in the block of point r / 5000: the ten blocks cover the array. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- After the region its result array holds the whole product. -/
theorem arr0 (c : Dev nD) : (dat0 V c).arrAt 2 cfg0.N = prod0 V c :=
  (dat0 V c).arrAt_eq_of_cover 2 (prod0 V c) (fun t _ => flushed0 V c t) (cover0)

/-! ## Region 1: rows 5000·t … 5000·t + 4999 of `main_v49 · main_arg3` at grid point t -/

/-- The index maps over the ten grid points: the left operand and the result move down one row block per point,
    on column block 0; the right operand is the one whole block at every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- The product of the two whole arrays as the region finds them. -/
def prod1 (c : Dev nD) : S50000x32.Idx → EReal :=
  Host.dotGeneral (F := Ideal) (φ₁ := .f32) (φ₂ := .f32) Cert.ReferenceIdeal.dot_S50000x64_S64x32_S50000x32_1_0_0_1_n_n none (V c main_v49) (V c main_arg3)

/-- What grid point t writes back is block t of the whole product: entry (p, q) of the stored block is row p of the
    left block against column q of the right block, the left block's row p is row 5000·t + p of the left array, and
    the right block is the right array. -/
theorem flushed1 (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x32) hz]
  obtain ⟨e0, e1, e2, e3, e4, e5⟩ := idx1 t
  have hN : cfg1.N = 10 := N_1
  have ht : t.val < 10 := hN ▸ t.isLt
  funext j
  obtain ⟨p, q, rfl⟩ : ∃ (p : Fin 5000) (q : Fin 32), j = ix2 p q := ⟨j 0, j 1, eq_ix2 j⟩
  have hp : p.val < 5000 := p.isLt
  have hemb : ((cfg1.win 2).blk t).view.emb (ix2 p q) = (ix2 (⟨t.val * 5000 + p.val, by omega⟩ : Fin 50000) q : S50000x32.Idx) := by
    funext a; apply Fin.ext
    match a with
    | ⟨0, _⟩ => show win1_2.index t (0 : Fin 2) * 5000 + 1 * p.val = t.val * 5000 + p.val; rw [e4]; omega
    | ⟨1, _⟩ => show win1_2.index t (1 : Fin 2) * 32 + 1 * q.val = q.val; rw [e5]; omega
  show k1_pay1 (iblk1 V c 0 t) (iblk1 V c 1 t) (ix2 p q) = prod1 V c (((cfg1.win 2).blk t).view.emb (ix2 p q))
  rw [hemb]
  unfold prod1
  refine (Cert.Dense.pay1_apply (iblk1 V c 0 t) (iblk1 V c 1 t) p q).trans ?_
  refine Eq.trans ?_ (Cert.Dense.ref64_apply _ _ _ q).symm
  refine Finset.sum_congr rfl fun k _ => ?_
  have hl : (iblk1 V c 0 t : S5000x64.Idx → EReal) (ix2 p k) = (V c main_v49 : S50000x64.Idx → EReal) (ix2 (⟨t.val * 5000 + p.val, by omega⟩ : Fin 50000) k) := by
    show V c main_v49 (((cfg1.win 0).blk t).view.emb (ix2 p k)) = _
    congr 1
    funext a; apply Fin.ext
    match a with
    | ⟨0, _⟩ => show win1_0.index t (0 : Fin 2) * 5000 + 1 * p.val = t.val * 5000 + p.val; rw [e0]; omega
    | ⟨1, _⟩ => show win1_0.index t (1 : Fin 2) * 64 + 1 * k.val = k.val; rw [e1]; omega
  have hr : (iblk1 V c 1 t : S64x32.Idx → EReal) (ix2 k q) = (V c main_arg3 : S64x32.Idx → EReal) (ix2 k q) := by
    show V c main_arg3 (((cfg1.win 1).blk t).view.emb (ix2 k q)) = _
    congr 1
    funext a; apply Fin.ext
    match a with
    | ⟨0, _⟩ => show win1_1.index t (0 : Fin 2) * 64 + 1 * k.val = k.val; rw [e2]; omega
    | ⟨1, _⟩ => show win1_1.index t (1 : Fin 2) * 32 + 1 * q.val = q.val; rw [e3]; omega
  rw [hl, hr]

/-- An index of the result array lies in point t's block iff each coordinate lies in the block's range. -/
theorem mem_blk1 (t : Fin cfg1.N) (i : S50000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v50).slice (win1_2.rect t)).set ↔ _
  rw [View.set_slice_whole, Rect.mem_set_unit]
  exact Iff.rfl

/-- Row r of the result lies in the block of point r / 5000: the ten blocks cover the array. -/
theorem cover1 (i : S50000x32.Idx) :
    ∃ t : Fin cfg1.N, (cfg1.win 2).flush t = true ∧ i ∈ ((cfg1.win 2).blk t).view.set := by
  have hi0 : (i 0).val < 50000 := (i 0).isLt
  have hi1 : (i 1).val < 32 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 32 ≤ (i 1).val ∧ (i 1).val < win1_2.index t (1 : Fin 2) * 32 + 32; rw [e5]; omega

/-- After the region its result array holds the whole product. -/
theorem arr1 (c : Dev nD) : (dat1 V c).arrAt 2 cfg1.N = prod1 V c :=
  (dat1 V c).arrAt_eq_of_cover 2 (prod1 V c) (fun t _ => flushed1 V c t) (cover1)

/-! ## Region 2: rows 5000·t … 5000·t + 4999 of `main_v49 · main_arg5` at grid point t -/

/-- The index maps over the ten grid points: the left operand and the result move down one row block per point,
    on column block 0; the right operand is the one whole block at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- The product of the two whole arrays as the region finds them. -/
def prod2 (c : Dev nD) : S50000x32.Idx → EReal :=
  Host.dotGeneral (F := Ideal) (φ₁ := .f32) (φ₂ := .f32) Cert.ReferenceIdeal.dot_S50000x64_S64x32_S50000x32_1_0_0_1_n_n none (V c main_v49) (V c main_arg5)

/-- What grid point t writes back is block t of the whole product: entry (p, q) of the stored block is row p of the
    left block against column q of the right block, the left block's row p is row 5000·t + p of the left array, and
    the right block is the right array. -/
theorem flushed2 (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x32) hz]
  obtain ⟨e0, e1, e2, e3, e4, e5⟩ := idx2 t
  have hN : cfg2.N = 10 := N_2
  have ht : t.val < 10 := hN ▸ t.isLt
  funext j
  obtain ⟨p, q, rfl⟩ : ∃ (p : Fin 5000) (q : Fin 32), j = ix2 p q := ⟨j 0, j 1, eq_ix2 j⟩
  have hp : p.val < 5000 := p.isLt
  have hemb : ((cfg2.win 2).blk t).view.emb (ix2 p q) = (ix2 (⟨t.val * 5000 + p.val, by omega⟩ : Fin 50000) q : S50000x32.Idx) := by
    funext a; apply Fin.ext
    match a with
    | ⟨0, _⟩ => show win2_2.index t (0 : Fin 2) * 5000 + 1 * p.val = t.val * 5000 + p.val; rw [e4]; omega
    | ⟨1, _⟩ => show win2_2.index t (1 : Fin 2) * 32 + 1 * q.val = q.val; rw [e5]; omega
  show k2_pay1 (iblk2 V c 0 t) (iblk2 V c 1 t) (ix2 p q) = prod2 V c (((cfg2.win 2).blk t).view.emb (ix2 p q))
  rw [hemb]
  unfold prod2
  refine (Cert.Dense.pay2_apply (iblk2 V c 0 t) (iblk2 V c 1 t) p q).trans ?_
  refine Eq.trans ?_ (Cert.Dense.ref64_apply _ _ _ q).symm
  refine Finset.sum_congr rfl fun k _ => ?_
  have hl : (iblk2 V c 0 t : S5000x64.Idx → EReal) (ix2 p k) = (V c main_v49 : S50000x64.Idx → EReal) (ix2 (⟨t.val * 5000 + p.val, by omega⟩ : Fin 50000) k) := by
    show V c main_v49 (((cfg2.win 0).blk t).view.emb (ix2 p k)) = _
    congr 1
    funext a; apply Fin.ext
    match a with
    | ⟨0, _⟩ => show win2_0.index t (0 : Fin 2) * 5000 + 1 * p.val = t.val * 5000 + p.val; rw [e0]; omega
    | ⟨1, _⟩ => show win2_0.index t (1 : Fin 2) * 64 + 1 * k.val = k.val; rw [e1]; omega
  have hr : (iblk2 V c 1 t : S64x32.Idx → EReal) (ix2 k q) = (V c main_arg5 : S64x32.Idx → EReal) (ix2 k q) := by
    show V c main_arg5 (((cfg2.win 1).blk t).view.emb (ix2 k q)) = _
    congr 1
    funext a; apply Fin.ext
    match a with
    | ⟨0, _⟩ => show win2_1.index t (0 : Fin 2) * 64 + 1 * k.val = k.val; rw [e2]; omega
    | ⟨1, _⟩ => show win2_1.index t (1 : Fin 2) * 32 + 1 * q.val = q.val; rw [e3]; omega
  rw [hl, hr]

/-- An index of the result array lies in point t's block iff each coordinate lies in the block's range. -/
theorem mem_blk2 (t : Fin cfg2.N) (i : S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v67).slice (win2_2.rect t)).set ↔ _
  rw [View.set_slice_whole, Rect.mem_set_unit]
  exact Iff.rfl

/-- Row r of the result lies in the block of point r / 5000: the ten blocks cover the array. -/
theorem cover2 (i : S50000x32.Idx) :
    ∃ t : Fin cfg2.N, (cfg2.win 2).flush t = true ∧ i ∈ ((cfg2.win 2).blk t).view.set := by
  have hi0 : (i 0).val < 50000 := (i 0).isLt
  have hi1 : (i 1).val < 32 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 32 ≤ (i 1).val ∧ (i 1).val < win2_2.index t (1 : Fin 2) * 32 + 32; rw [e5]; omega

/-- After the region its result array holds the whole product. -/
theorem arr2 (c : Dev nD) : (dat2 V c).arrAt 2 cfg2.N = prod2 V c :=
  (dat2 V c).arrAt_eq_of_cover 2 (prod2 V c) (fun t _ => flushed2 V c t) (cover2)

end Cert.Blocks

end
-- ==== Proof.Stages.lean ====
/-
  The host operations between the launches, and the run's fold read off at the two results.

  Between the launches both programs apply the same array operations to the same buffers.  A stretch of them, from
  ANY buffer contents `V`, leaves in its last buffer the corresponding function of the encoder applied to what `V`
  holds at the buffers the stretch reads, and leaves every buffer it does not write as it was.  Chaining the stretches
  with the three launches — each of which replaces its result array by the product of its two operand arrays and
  keeps every other buffer — from the launch memory: the edge slots' sources, destinations and weights are computed
  once, before the first launch, and survive to the end; the first launch's array is `x · W_in`; the stretch after it
  makes the hidden features; the second and third launches' arrays are the hidden features times `W_mu` and `W_ls`;
  the stretches after them make the two results.
-/
import proofs.«115209_j54924041781476_1_alg».proof.Proof.Gen.KernelIdeal.Frame
import proofs.«115209_j54924041781476_1_alg».proof.Proof.Gcn
import proofs.«115209_j54924041781476_1_alg».proof.Proof.Blocks
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.Stages

open Cert.KernelIdeal Cert.KernelIdeal.Gen

/-! ## Each stretch of host operations, from any contents -/

section Stretches

variable {F : FTy → Type} [FloatOps F] (V : Valuation τ sig (Elt F))

/-- Before the first launch: the edge slots' sources, … -/
theorem pre_src : after hostOps0_2 (after hostOps0_1 (after hostOps0 V)) (Proc.devRef .tc main_v3) = Cert.Gcn.srcOf (V (Proc.devRef .tc main_arg7)) := by
  after_results_simp
  rfl
/-- … their destinations, … -/
theorem pre_dst : after hostOps0_2 (after hostOps0_1 (after hostOps0 V)) (Proc.devRef .tc main_v6) = Cert.Gcn.dstOf (V (Proc.devRef .tc main_arg7)) := by
  after_results_simp
  rfl
/-- … and their weights, from the edge list alone. -/
theorem pre_norm : after hostOps0_2 (after hostOps0_1 (after hostOps0 V)) (Proc.devRef .tc main_v31) = Cert.Gcn.edgeNorm (Cert.Gcn.srcOf (V (Proc.devRef .tc main_arg7))) (Cert.Gcn.dstOf (V (Proc.devRef .tc main_arg7))) := by
  after_results_simp
  rfl
theorem pre_keep_arg0 : after hostOps0_2 (after hostOps0_1 (after hostOps0 V)) (Proc.devRef .tc main_arg0) = V (Proc.devRef .tc main_arg0) := by
  after_results_simp
theorem pre_keep_arg1 : after hostOps0_2 (after hostOps0_1 (after hostOps0 V)) (Proc.devRef .tc main_arg1) = V (Proc.devRef .tc main_arg1) := by
  after_results_simp
theorem pre_keep_arg2 : after hostOps0_2 (after hostOps0_1 (after hostOps0 V)) (Proc.devRef .tc main_arg2) = V (Proc.devRef .tc main_arg2) := by
  after_results_simp
theorem pre_keep_arg3 : after hostOps0_2 (after hostOps0_1 (after hostOps0 V)) (Proc.devRef .tc main_arg3) = V (Proc.devRef .tc main_arg3) := by
  after_results_simp
theorem pre_keep_arg4 : after hostOps0_2 (after hostOps0_1 (after hostOps0 V)) (Proc.devRef .tc main_arg4) = V (Proc.devRef .tc main_arg4) := by
  after_results_simp
theorem pre_keep_arg5 : after hostOps0_2 (after hostOps0_1 (after hostOps0 V)) (Proc.devRef .tc main_arg5) = V (Proc.devRef .tc main_arg5) := by
  after_results_simp
theorem pre_keep_arg6 : after hostOps0_2 (after hostOps0_1 (after hostOps0 V)) (Proc.devRef .tc main_arg6) = V (Proc.devRef .tc main_arg6) := by
  after_results_simp

/-- After the first launch: the hidden features from the launch's array, the bias, and the slots' data. -/
theorem st1_hidden : after hostOps1_1 (after hostOps1 V) (Proc.devRef .tc main_v49) = Cert.Gcn.layer1 (V (Proc.devRef .tc main_v32)) (V (Proc.devRef .tc main_arg2)) (V (Proc.devRef .tc main_v3)) (V (Proc.devRef .tc main_v6)) (V (Proc.devRef .tc main_v31)) := by
  after_results_simp
  rfl
theorem st1_keep_arg3 : after hostOps1_1 (after hostOps1 V) (Proc.devRef .tc main_arg3) = V (Proc.devRef .tc main_arg3) := by
  after_results_simp
theorem st1_keep_arg4 : after hostOps1_1 (after hostOps1 V) (Proc.devRef .tc main_arg4) = V (Proc.devRef .tc main_arg4) := by
  after_results_simp
theorem st1_keep_arg5 : after hostOps1_1 (after hostOps1 V) (Proc.devRef .tc main_arg5) = V (Proc.devRef .tc main_arg5) := by
  after_results_simp
theorem st1_keep_arg6 : after hostOps1_1 (after hostOps1 V) (Proc.devRef .tc main_arg6) = V (Proc.devRef .tc main_arg6) := by
  after_results_simp
theorem st1_keep_v3 : after hostOps1_1 (after hostOps1 V) (Proc.devRef .tc main_v3) = V (Proc.devRef .tc main_v3) := by
  after_results_simp
theorem st1_keep_v6 : after hostOps1_1 (after hostOps1 V) (Proc.devRef .tc main_v6) = V (Proc.devRef .tc main_v6) := by
  after_results_simp
theorem st1_keep_v31 : after hostOps1_1 (after hostOps1 V) (Proc.devRef .tc main_v31) = V (Proc.devRef .tc main_v31) := by
  after_results_simp

/-- After the second launch: the first result from the launch's array, its bias, and the slots' data. -/
theorem st2_out : after hostOps2 V (Proc.devRef .tc main_v66) = Cert.Gcn.conv32 (V (Proc.devRef .tc main_v50)) (V (Proc.devRef .tc main_arg4)) (V (Proc.devRef .tc main_v3)) (V (Proc.devRef .tc main_v6)) (V (Proc.devRef .tc main_v31)) := by
  after_results_simp
  rfl
theorem st2_keep_v49 : after hostOps2 V (Proc.devRef .tc main_v49) = V (Proc.devRef .tc main_v49) := by
  after_results_simp
theorem st2_keep_arg5 : after hostOps2 V (Proc.devRef .tc main_arg5) = V (Proc.devRef .tc main_arg5) := by
  after_results_simp
theorem st2_keep_arg6 : after hostOps2 V (Proc.devRef .tc main_arg6) = V (Proc.devRef .tc main_arg6) := by
  after_results_simp
theorem st2_keep_v3 : after hostOps2 V (Proc.devRef .tc main_v3) = V (Proc.devRef .tc main_v3) := by
  after_results_simp
theorem st2_keep_v6 : after hostOps2 V (Proc.devRef .tc main_v6) = V (Proc.devRef .tc main_v6) := by
  after_results_simp
theorem st2_keep_v31 : after hostOps2 V (Proc.devRef .tc main_v31) = V (Proc.devRef .tc main_v31) := by
  after_results_simp

/-- After the third launch: the second result likewise. -/
theorem st3_out : after hostOps3 V (Proc.devRef .tc main_v83) = Cert.Gcn.conv32 (V (Proc.devRef .tc main_v67)) (V (Proc.devRef .tc main_arg6)) (V (Proc.devRef .tc main_v3)) (V (Proc.devRef .tc main_v6)) (V (Proc.devRef .tc main_v31)) := by
  after_results_simp
  rfl
theorem st3_keep_v66 : after hostOps3 V (Proc.devRef .tc main_v66) = V (Proc.devRef .tc main_v66) := by
  after_results_simp

end Stretches

/-! ## The fold through the seven stretches and the three launches, from the launch memory -/

section Chain

variable (m : (ℓ : Loc nD τ sig) → Buf (Elt Ideal) ℓ) (ρ : Dev nD → PrngReg) (c : Dev nD)

/-! ### When the first launch begins -/
theorem s3_a0 : W3 m ρ c (Proc.devRef .tc main_arg0) = (m ((c : Thread nD τ).loc main_arg0)) := pre_keep_arg0 (W0 m ρ c)
theorem s3_a1 : W3 m ρ c (Proc.devRef .tc main_arg1) = (m ((c : Thread nD τ).loc main_arg1)) := pre_keep_arg1 (W0 m ρ c)
theorem s3_a2 : W3 m ρ c (Proc.devRef .tc main_arg2) = (m ((c : Thread nD τ).loc main_arg2)) := pre_keep_arg2 (W0 m ρ c)
theorem s3_a3 : W3 m ρ c (Proc.devRef .tc main_arg3) = (m ((c : Thread nD τ).loc main_arg3)) := pre_keep_arg3 (W0 m ρ c)
theorem s3_a4 : W3 m ρ c (Proc.devRef .tc main_arg4) = (m ((c : Thread nD τ).loc main_arg4)) := pre_keep_arg4 (W0 m ρ c)
theorem s3_a5 : W3 m ρ c (Proc.devRef .tc main_arg5) = (m ((c : Thread nD τ).loc main_arg5)) := pre_keep_arg5 (W0 m ρ c)
theorem s3_a6 : W3 m ρ c (Proc.devRef .tc main_arg6) = (m ((c : Thread nD τ).loc main_arg6)) := pre_keep_arg6 (W0 m ρ c)
theorem s3_s : W3 m ρ c (Proc.devRef .tc main_v3) = (Cert.Gcn.srcOf (m ((c : Thread nD τ).loc main_arg7))) := pre_src (W0 m ρ c)
theorem s3_d : W3 m ρ c (Proc.devRef .tc main_v6) = (Cert.Gcn.dstOf (m ((c : Thread nD τ).loc main_arg7))) := pre_dst (W0 m ρ c)
theorem s3_w : W3 m ρ c (Proc.devRef .tc main_v31) = (Cert.Gcn.edgeNorm (Cert.Gcn.srcOf (m ((c : Thread nD τ).loc main_arg7))) (Cert.Gcn.dstOf (m ((c : Thread nD τ).loc main_arg7)))) := pre_norm (W0 m ρ c)

/-! ### When it ends: its array is `x · W_in`; the rest is kept -/
theorem s4_z : W4 m ρ c (Proc.devRef .tc main_v32) = Host.dotGeneral (F := Ideal) (φ₁ := .f32) (φ₂ := .f32) Cert.ReferenceIdeal.dot_S50000x256_S256x64_S50000x64_1_0_0_1_n_n none (m ((c : Thread nD τ).loc main_arg0)) (m ((c : Thread nD τ).loc main_arg1)) :=
  (W4_arr m ρ c 2).trans ((Cert.Blocks.arr0 (V3 m ρ) c).trans (by
    unfold Cert.Blocks.prod0
    exact congrArg₂ (Host.dotGeneral (F := Ideal) (φ₁ := .f32) (φ₂ := .f32) Cert.ReferenceIdeal.dot_S50000x256_S256x64_S50000x64_1_0_0_1_n_n none) (s3_a0 m ρ c) (s3_a1 m ρ c)))
theorem s4_a2 : W4 m ρ c (Proc.devRef .tc main_arg2) = (m ((c : Thread nD τ).loc main_arg2)) := (W4_of_ne m ρ c main_arg2 (by decide)).trans (s3_a2 m ρ c)
theorem s4_a3 : W4 m ρ c (Proc.devRef .tc main_arg3) = (m ((c : Thread nD τ).loc main_arg3)) := (W4_of_ne m ρ c main_arg3 (by decide)).trans (s3_a3 m ρ c)
theorem s4_a4 : W4 m ρ c (Proc.devRef .tc main_arg4) = (m ((c : Thread nD τ).loc main_arg4)) := (W4_of_ne m ρ c main_arg4 (by decide)).trans (s3_a4 m ρ c)
theorem s4_a5 : W4 m ρ c (Proc.devRef .tc main_arg5) = (m ((c : Thread nD τ).loc main_arg5)) := (W4_of_ne m ρ c main_arg5 (by decide)).trans (s3_a5 m ρ c)
theorem s4_a6 : W4 m ρ c (Proc.devRef .tc main_arg6) = (m ((c : Thread nD τ).loc main_arg6)) := (W4_of_ne m ρ c main_arg6 (by decide)).trans (s3_a6 m ρ c)
theorem s4_s : W4 m ρ c (Proc.devRef .tc main_v3) = (Cert.Gcn.srcOf (m ((c : Thread nD τ).loc main_arg7))) := (W4_of_ne m ρ c main_v3 (by decide)).trans (s3_s m ρ c)
theorem s4_d : W4 m ρ c (Proc.devRef .tc main_v6) = (Cert.Gcn.dstOf (m ((c : Thread nD τ).loc main_arg7))) := (W4_of_ne m ρ c main_v6 (by decide)).trans (s3_d m ρ c)
theorem s4_w : W4 m ρ c (Proc.devRef .tc main_v31) = (Cert.Gcn.edgeNorm (Cert.Gcn.srcOf (m ((c : Thread nD τ).loc main_arg7))) (Cert.Gcn.dstOf (m ((c : Thread nD τ).loc main_arg7)))) := (W4_of_ne m ρ c main_v31 (by decide)).trans (s3_w m ρ c)

/-! ### When the second launch begins: the hidden features are made -/
theorem s6_h : W6 m ρ c (Proc.devRef .tc main_v49) = (Cert.Gcn.hidden (m ((c : Thread nD τ).loc main_arg0)) (m ((c : Thread nD τ).loc main_arg1)) (m ((c : Thread nD τ).loc main_arg2)) (m ((c : Thread nD τ).loc main_arg7))) := by
  show after hostOps1_1 (after hostOps1 (W4 m ρ c)) (Proc.devRef .tc main_v49) = _
  rw [st1_hidden, s4_z m ρ c, s4_a2 m ρ c, s4_s m ρ c, s4_d m ρ c, s4_w m ρ c]
  rfl
theorem s6_a3 : W6 m ρ c (Proc.devRef .tc main_arg3) = (m ((c : Thread nD τ).loc main_arg3)) := (st1_keep_arg3 (W4 m ρ c)).trans (s4_a3 m ρ c)
theorem s6_a4 : W6 m ρ c (Proc.devRef .tc main_arg4) = (m ((c : Thread nD τ).loc main_arg4)) := (st1_keep_arg4 (W4 m ρ c)).trans (s4_a4 m ρ c)
theorem s6_a5 : W6 m ρ c (Proc.devRef .tc main_arg5) = (m ((c : Thread nD τ).loc main_arg5)) := (st1_keep_arg5 (W4 m ρ c)).trans (s4_a5 m ρ c)
theorem s6_a6 : W6 m ρ c (Proc.devRef .tc main_arg6) = (m ((c : Thread nD τ).loc main_arg6)) := (st1_keep_arg6 (W4 m ρ c)).trans (s4_a6 m ρ c)
theorem s6_s : W6 m ρ c (Proc.devRef .tc main_v3) = (Cert.Gcn.srcOf (m ((c : Thread nD τ).loc main_arg7))) := (st1_keep_v3 (W4 m ρ c)).trans (s4_s m ρ c)
theorem s6_d : W6 m ρ c (Proc.devRef .tc main_v6) = (Cert.Gcn.dstOf (m ((c : Thread nD τ).loc main_arg7))) := (st1_keep_v6 (W4 m ρ c)).trans (s4_d m ρ c)
theorem s6_w : W6 m ρ c (Proc.devRef .tc main_v31) = (Cert.Gcn.edgeNorm (Cert.Gcn.srcOf (m ((c : Thread nD τ).loc main_arg7))) (Cert.Gcn.dstOf (m ((c : Thread nD τ).loc main_arg7)))) := (st1_keep_v31 (W4 m ρ c)).trans (s4_w m ρ c)

/-! ### When it ends: its array is the hidden features times `W_mu`; its operands and the rest are kept -/
theorem s7_z : W7 m ρ c (Proc.devRef .tc main_v50) = Host.dotGeneral (F := Ideal) (φ₁ := .f32) (φ₂ := .f32) Cert.ReferenceIdeal.dot_S50000x64_S64x32_S50000x32_1_0_0_1_n_n none (Cert.Gcn.hidden (m ((c : Thread nD τ).loc main_arg0)) (m ((c : Thread nD τ).loc main_arg1)) (m ((c : Thread nD τ).loc main_arg2)) (m ((c : Thread nD τ).loc main_arg7))) (m ((c : Thread nD τ).loc main_arg3)) :=
  (W7_arr m ρ c 2).trans ((Cert.Blocks.arr1 (V6 m ρ) c).trans (by
    unfold Cert.Blocks.prod1
    exact congrArg₂ (Host.dotGeneral (F := Ideal) (φ₁ := .f32) (φ₂ := .f32) Cert.ReferenceIdeal.dot_S50000x64_S64x32_S50000x32_1_0_0_1_n_n none) (s6_h m ρ c) (s6_a3 m ρ c)))
theorem s7_h : W7 m ρ c (Proc.devRef .tc main_v49) = (Cert.Gcn.hidden (m ((c : Thread nD τ).loc main_arg0)) (m ((c : Thread nD τ).loc main_arg1)) (m ((c : Thread nD τ).loc main_arg2)) (m ((c : Thread nD τ).loc main_arg7))) :=
  ((W7_arr m ρ c 0).trans (((dat1 (V6 m ρ) c).arrAt_in 0 rfl _).trans (A_eq1 (V6 m ρ) c 0))).trans (s6_h m ρ c)
theorem s7_a4 : W7 m ρ c (Proc.devRef .tc main_arg4) = (m ((c : Thread nD τ).loc main_arg4)) := (W7_of_ne m ρ c main_arg4 (by decide)).trans (s6_a4 m ρ c)
theorem s7_a5 : W7 m ρ c (Proc.devRef .tc main_arg5) = (m ((c : Thread nD τ).loc main_arg5)) := (W7_of_ne m ρ c main_arg5 (by decide)).trans (s6_a5 m ρ c)
theorem s7_a6 : W7 m ρ c (Proc.devRef .tc main_arg6) = (m ((c : Thread nD τ).loc main_arg6)) := (W7_of_ne m ρ c main_arg6 (by decide)).trans (s6_a6 m ρ c)
theorem s7_s : W7 m ρ c (Proc.devRef .tc main_v3) = (Cert.Gcn.srcOf (m ((c : Thread nD τ).loc main_arg7))) := (W7_of_ne m ρ c main_v3 (by decide)).trans (s6_s m ρ c)
theorem s7_d : W7 m ρ c (Proc.devRef .tc main_v6) = (Cert.Gcn.dstOf (m ((c : Thread nD τ).loc main_arg7))) := (W7_of_ne m ρ c main_v6 (by decide)).trans (s6_d m ρ c)
theorem s7_w : W7 m ρ c (Proc.devRef .tc main_v31) = (Cert.Gcn.edgeNorm (Cert.Gcn.srcOf (m ((c : Thread nD τ).loc main_arg7))) (Cert.Gcn.dstOf (m ((c : Thread nD τ).loc main_arg7)))) := (W7_of_ne m ρ c main_v31 (by decide)).trans (s6_w m ρ c)

/-! ### When the third launch begins: the first result is made -/
theorem s8_mu : W8 m ρ c (Proc.devRef .tc main_v66) = Cert.Gcn.head (Cert.Gcn.hidden (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7)) := by
  show after hostOps2 (W7 m ρ c) (Proc.devRef .tc main_v66) = _
  rw [st2_out, s7_z m ρ c, s7_a4 m ρ c, s7_s m ρ c, s7_d m ρ c, s7_w m ρ c]
  rfl
theorem s8_h : W8 m ρ c (Proc.devRef .tc main_v49) = (Cert.Gcn.hidden (m ((c : Thread nD τ).loc main_arg0)) (m ((c : Thread nD τ).loc main_arg1)) (m ((c : Thread nD τ).loc main_arg2)) (m ((c : Thread nD τ).loc main_arg7))) := (st2_keep_v49 (W7 m ρ c)).trans (s7_h m ρ c)
theorem s8_a5 : W8 m ρ c (Proc.devRef .tc main_arg5) = (m ((c : Thread nD τ).loc main_arg5)) := (st2_keep_arg5 (W7 m ρ c)).trans (s7_a5 m ρ c)
theorem s8_a6 : W8 m ρ c (Proc.devRef .tc main_arg6) = (m ((c : Thread nD τ).loc main_arg6)) := (st2_keep_arg6 (W7 m ρ c)).trans (s7_a6 m ρ c)
theorem s8_s : W8 m ρ c (Proc.devRef .tc main_v3) = (Cert.Gcn.srcOf (m ((c : Thread nD τ).loc main_arg7))) := (st2_keep_v3 (W7 m ρ c)).trans (s7_s m ρ c)
theorem s8_d : W8 m ρ c (Proc.devRef .tc main_v6) = (Cert.Gcn.dstOf (m ((c : Thread nD τ).loc main_arg7))) := (st2_keep_v6 (W7 m ρ c)).trans (s7_d m ρ c)
theorem s8_w : W8 m ρ c (Proc.devRef .tc main_v31) = (Cert.Gcn.edgeNorm (Cert.Gcn.srcOf (m ((c : Thread nD τ).loc main_arg7))) (Cert.Gcn.dstOf (m ((c : Thread nD τ).loc main_arg7)))) := (st2_keep_v31 (W7 m ρ c)).trans (s7_w m ρ c)

/-! ### When it ends: its array is the hidden features times `W_ls` -/
theorem s9_z : W9 m ρ c (Proc.devRef .tc main_v67) = Host.dotGeneral (F := Ideal) (φ₁ := .f32) (φ₂ := .f32) Cert.ReferenceIdeal.dot_S50000x64_S64x32_S50000x32_1_0_0_1_n_n none (Cert.Gcn.hidden (m ((c : Thread nD τ).loc main_arg0)) (m ((c : Thread nD τ).loc main_arg1)) (m ((c : Thread nD τ).loc main_arg2)) (m ((c : Thread nD τ).loc main_arg7))) (m ((c : Thread nD τ).loc main_arg5)) :=
  (W9_arr m ρ c 2).trans ((Cert.Blocks.arr2 (V8 m ρ) c).trans (by
    unfold Cert.Blocks.prod2
    exact congrArg₂ (Host.dotGeneral (F := Ideal) (φ₁ := .f32) (φ₂ := .f32) Cert.ReferenceIdeal.dot_S50000x64_S64x32_S50000x32_1_0_0_1_n_n none) (s8_h m ρ c) (s8_a5 m ρ c)))
theorem s9_mu : W9 m ρ c (Proc.devRef .tc main_v66) = Cert.Gcn.head (Cert.Gcn.hidden (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7)) := (W9_of_ne m ρ c main_v66 (by decide)).trans (s8_mu m ρ c)
theorem s9_a6 : W9 m ρ c (Proc.devRef .tc main_arg6) = (m ((c : Thread nD τ).loc main_arg6)) := (W9_of_ne m ρ c main_arg6 (by decide)).trans (s8_a6 m ρ c)
theorem s9_s : W9 m ρ c (Proc.devRef .tc main_v3) = (Cert.Gcn.srcOf (m ((c : Thread nD τ).loc main_arg7))) := (W9_of_ne m ρ c main_v3 (by decide)).trans (s8_s m ρ c)
theorem s9_d : W9 m ρ c (Proc.devRef .tc main_v6) = (Cert.Gcn.dstOf (m ((c : Thread nD τ).loc main_arg7))) := (W9_of_ne m ρ c main_v6 (by decide)).trans (s8_d m ρ c)
theorem s9_w : W9 m ρ c (Proc.devRef .tc main_v31) = (Cert.Gcn.edgeNorm (Cert.Gcn.srcOf (m ((c : Thread nD τ).loc main_arg7))) (Cert.Gcn.dstOf (m ((c : Thread nD τ).loc main_arg7)))) := (W9_of_ne m ρ c main_v31 (by decide)).trans (s8_w m ρ c)

/-! ### At the return: the two results -/

/-- The first result buffer holds `mu`: made before the third launch, kept since. -/
theorem s10_mu : W10 m ρ c (Proc.devRef .tc main_v66) = Cert.Gcn.head (Cert.Gcn.hidden (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7)) := (st3_keep_v66 (W9 m ρ c)).trans (s9_mu m ρ c)

/-- The second result buffer holds `logstd`. -/
theorem s10_ls : W10 m ρ c (Proc.devRef .tc main_v83) = Cert.Gcn.head (Cert.Gcn.hidden (m ((c : Thread nD τ).loc main_arg0)) (m ((c : Thread nD τ).loc main_arg1)) (m ((c : Thread nD τ).loc main_arg2)) (m ((c : Thread nD τ).loc main_arg7))) (m ((c : Thread nD τ).loc main_arg5)) (m ((c : Thread nD τ).loc main_arg6)) (m ((c : Thread nD τ).loc main_arg7)) := by
  show after hostOps3 (W9 m ρ c) (Proc.devRef .tc main_v83) = _
  rw [st3_out, s9_z m ρ c, s9_a6 m ρ c, s9_s m ρ c, s9_d m ρ c, s9_w m ρ c]
  rfl

end Chain

end Cert.Stages

end
-- ==== Proof.RefValue.lean ====
/-
  The reference's two results are the encoder's two heads.

  The reference computes the same chain of array operations on whole arrays, its three matrix products included; its
  run states each result as ONE composed term of the argument arrays.  That term is, operation for operation, the
  second layer over the hidden features (`Cert.Gcn.head` over `Cert.Gcn.hidden`) with the shared pieces written out
  at each use.
-/
import proofs.«115209_j54924041781476_1_alg».proof.Proof.RefRun
import proofs.«115209_j54924041781476_1_alg».proof.Proof.Gcn

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The first result's term is `mu`: the head at (`W_mu`, `b_mu`). -/
theorem res0_eq (m : (ℓ : Loc nD τ sig) → Buf (Elt F) ℓ) (c : Dev nD) :
    Cert.ReferenceIdeal.ValueP.res_main_v66 m c
      = Cert.Gcn.head (Cert.Gcn.hidden (m ((c.tc : Thread nD τ).loc main_arg0)) (m ((c.tc : Thread nD τ).loc main_arg1)) (m ((c.tc : Thread nD τ).loc main_arg2)) (m ((c.tc : Thread nD τ).loc main_arg7))) (m ((c.tc : Thread nD τ).loc main_arg3)) (m ((c.tc : Thread nD τ).loc main_arg4)) (m ((c.tc : Thread nD τ).loc main_arg7)) := by
  unfold Cert.ReferenceIdeal.ValueP.res_main_v66
  rfl

/-- The second result's term is `logstd`: the head at (`W_ls`, `b_ls`). -/
theorem res1_eq (m : (ℓ : Loc nD τ sig) → Buf (Elt F) ℓ) (c : Dev nD) :
    Cert.ReferenceIdeal.ValueP.res_main_v83 m c
      = Cert.Gcn.head (Cert.Gcn.hidden (m ((c.tc : Thread nD τ).loc main_arg0)) (m ((c.tc : Thread nD τ).loc main_arg1)) (m ((c.tc : Thread nD τ).loc main_arg2)) (m ((c.tc : Thread nD τ).loc main_arg7))) (m ((c.tc : Thread nD τ).loc main_arg5)) (m ((c.tc : Thread nD τ).loc main_arg6)) (m ((c.tc : Thread nD τ).loc main_arg7)) := by
  unfold Cert.ReferenceIdeal.ValueP.res_main_v83
  rfl

end Cert.ReferenceIdeal.RefValue

end
-- ==== Proof.lean ====
/-
  The certificate of a two-layer variational graph encoder: a Pallas kernel for the three dense products against
  the plain jnp reference.

  Both programs take node features x [50000, 256], weights and biases of three linear maps, and an edge list
  [2, 800000].  Both append a self loop per node, weigh every edge slot by degree^(-1/2) at its two endpoints, and
  compute  h = max(Â·(x·W_in) + b_in, 0),  mu = Â·(h·W_mu) + b_mu,  logstd = Â·(h·W_ls) + b_ls,  where Â· gathers
  the source rows, scales them by the slots' weights and adds them into the destination rows.  Everything except the
  three matrix products is the same list of array operations in both programs.  The kernel computes each product in
  ten launches of a body that rounds a block of 5000 rows and the whole weight matrix to bf16 and multiplies them
  into a zero accumulator; the reference multiplies the whole arrays.  Over the extended reals rounding is the
  identity and either product's entry (r, c) is the sum over k of a(r, k) · b(k, c), so the ten row blocks are the
  whole product, and with equal products the surrounding operations give equal results.  No algebraic law is used
  beyond that, and the precondition (finite inputs) is never opened.

  The modules: `Gcn` states the encoder as functions of its inputs; `Dense` reads the four products at an entry;
  `Blocks` assembles each launch's ten row blocks into the whole product; `KernelRun` is the kernel's run with its two
  result buffers named; `Stages` reads the kernel's buffers after every stretch of host operations and every launch;
  `RefValue` reads the reference's two results; the reference's run itself is module `RefRun`.
-/
import proofs.«115209_j54924041781476_1_alg».proof.Defs
import proofs.«115209_j54924041781476_1_alg».proof.Proof.Gen.Kernel
import proofs.«115209_j54924041781476_1_alg».proof.Proof.Gen.Kernel.Skeleton
import proofs.«115209_j54924041781476_1_alg».proof.Proof.Gen.Kernel.Launch
import proofs.«115209_j54924041781476_1_alg».proof.Proof.Gen.Kernel.Points
import proofs.«115209_j54924041781476_1_alg».proof.Proof.Gen.Kernel.Frame
import proofs.«115209_j54924041781476_1_alg».proof.Proof.Gen.KernelIdeal
import proofs.«115209_j54924041781476_1_alg».proof.Proof.Gen.KernelIdeal.Skeleton
import proofs.«115209_j54924041781476_1_alg».proof.Proof.Gen.KernelIdeal.Launch
import proofs.«115209_j54924041781476_1_alg».proof.Proof.Gen.KernelIdeal.Points
import proofs.«115209_j54924041781476_1_alg».proof.Proof.Gen.KernelIdeal.Frame
import proofs.«115209_j54924041781476_1_alg».proof.Proof.Gen.ReferenceIdeal
import proofs.«115209_j54924041781476_1_alg».proof.Proof.Gen.Pre_finite_inputs
import proofs.«115209_j54924041781476_1_alg».proof.Proof.RefRun
import proofs.«115209_j54924041781476_1_alg».proof.Proof.KernelRun
import proofs.«115209_j54924041781476_1_alg».proof.Proof.Stages
import proofs.«115209_j54924041781476_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the two results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- The kernel's idealization rewrote nothing. -/
theorem preserves : Cert.preserves_Kernel_KernelIdeal := trivial

/-- From memories that agree on the arguments both programs end with `mu` and `logstd` of those arguments in their
    result buffers: the kernel by the fold through its stretches and launches, the reference by its composed terms. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.head (Cert.Gcn.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)),
    fun c => Cert.Gcn.head (Cert.Gcn.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Stages.s10_mu m ρ c), (h c).2.1.trans (Cert.Stages.s10_ls m ρ c), (h c).2.2⟩)
      (Cert.KernelIdeal.Results.run m ρ)
  · refine (θ_run Cert.ReferenceIdeal.defs _ _).mono
      (fun r h c => ⟨(h c).1.trans ?_, (h c).2.1.trans ?_, (h c).2.2⟩)
      (Cert.ReferenceIdeal.ValueP.run (F := Ideal) m' ρ')
    · rw [Cert.ReferenceIdeal.RefValue.res0_eq, (hagree c).1, (hagree c).2.1, (hagree c).2.2.1, (hagree c).2.2.2.1, (hagree c).2.2.2.2.1, (hagree c).2.2.2.2.2.2.2]
    · rw [Cert.ReferenceIdeal.RefValue.res1_eq, (hagree c).1, (hagree c).2.1, (hagree c).2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
